-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 65
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.DenseBlock.lean ====
/-
  One row block of the dense product.  The matmul body casts its [10000,128] block of X and the whole
  [128,128] weight W to bf16 (the identity on extended reals), and multiplies them on the MXU into a zero
  accumulator.  Read at entry (p, q) of the block this is the textbook sum over the contracted axis,
  Σ_k X[p,k] · W[k,q].
-/
import proofs.«140472_j13494787244545_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.DenseBlock

open Cert.KernelIdeal Cert.KernelIdeal.Gen Idealize.ShloMosaic Idealize.ShloMosaic.ValueIdx

/-- The block product's dimension record: contract axis 1 of the left operand with axis 0 of the right. -/
abbrev D : DotDims S10000x128 S128x128 S10000x128 := dot_S10000x128_S128x128_S10000x128_1_0_0_1_n_n

/-- The left operand is read in the output's row … -/
theorem lhs_row (j : S10000x128.Idx) (q : D.contr.Idx) : (D.lhsIdx j q 0).val = (j 0).val := by
  unfold DotDims.lhsIdx
  rw [dif_neg (show ¬(0 : Fin S10000x128.rank) ∈ D.lhsBatch by decide),
    dif_pos (show (0 : Fin S10000x128.rank) ∈ D.lhsNonContracting by decide)]
  rfl
/-- … at the contracted position; -/
theorem lhs_col (j : S10000x128.Idx) (q : D.contr.Idx) : (D.lhsIdx j q 1).val = (q ⟨0, by decide⟩).val :=
  D.lhsIdx_val_of_single rfl j q
/-- the right operand at the contracted position … -/
theorem rhs_row (j : S10000x128.Idx) (q : D.contr.Idx) : (D.rhsIdx j q 0).val = (q ⟨0, by decide⟩).val :=
  D.rhsIdx_val_of_single rfl j q
/-- … in the output's column. -/
theorem rhs_col (j : S10000x128.Idx) (q : D.contr.Idx) : (D.rhsIdx j q 1).val = (j 1).val := by
  unfold DotDims.rhsIdx
  rw [dif_neg (show ¬(1 : Fin S128x128.rank) ∈ D.rhsBatch by decide),
    dif_pos (show (1 : Fin S128x128.rank) ∈ D.rhsNonContracting by decide)]
  rfl

/-- Entry (p, q) of what the body stores: row p of the X block against column q of W. -/
theorem pay_apply (x0 : FVec Ideal S10000x128 .f32) (x1 : FVec Ideal S128x128 .f32) (p : Fin 10000) (q : Fin 128) :
    k0_pay1 (F := Ideal) x0 x1 (ix2 p q) = ∑ k : Fin 128, x0 (ix2 p k) * x1 (ix2 k q) := by
  unfold k0_pay1
  show FloatOps.matmul D none (truncf (F := Ideal) .bf16 x0 bitsLt_bf16_f32) (truncf (F := Ideal) .bf16 x1 bitsLt_bf16_f32)
    (constant (F := Ideal) S10000x128 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  show x0 (D.lhsIdx (ix2 p q) ((contrEquiv1 D 128 rfl rfl).symm k)) * x1 (D.rhsIdx (ix2 p q) ((contrEquiv1 D 128 rfl rfl).symm k)) = _
  rw [el, er]

end Cert.KernelIdeal.DenseBlock

end
-- ==== Proof.DenseArray.lean ====
/-
  The dense product as one array.  The first region runs the matmul body at ten grid points; point t reads
  rows 10000·t … 10000·t + 9999 of X and the whole of W, and writes back the same rows of the result.  Each
  written block is the corresponding block of ONE function of the whole arrays,
      dense X W (r, q) = Σ_k X[r,k] · W[k,q],
  and the ten blocks cover all 100000 rows, so after the region the result array holds that function.
  Everything is stated for arbitrary contents `V` of the buffers at the region's entry.
-/
import proofs.«140472_j13494787244545_1_alg».proof.Proof.Gen.KernelIdeal.Frame
import proofs.«140472_j13494787244545_1_alg».proof.Proof.DenseBlock

set_option maxRecDepth 16384

noncomputable section

namespace Cert.KernelIdeal.DenseArray

open Cert.KernelIdeal Cert.KernelIdeal.Gen Idealize.ShloMosaic Idealize.ShloMosaic.TcCoe Idealize.SL.Sem
open Idealize.ShloMosaic.ValueIdx
open Idealize.ShloMosaic.Pipeline (Dat)

/-- X·W over the extended reals, entry by entry. -/
def dense (x : S100000x128.Idx → EReal) (w : S128x128.Idx → EReal) : S100000x128.Idx → EReal :=
  fun i => ∑ k : Fin 128, x (ix2 (i 0) k) * w (ix2 k (i 1))

/-- An entry of a stored block is an entry of `dense`, once the block of X agrees with X on the entry's row
    and the staged W with W on the entry's column. -/
theorem block_entry (x0 : FVec Ideal S10000x128 .f32) (x1 : FVec Ideal S128x128 .f32)
    (X : S100000x128.Idx → EReal) (Wt : S128x128.Idx → EReal) (y : S10000x128.Idx) (i : S100000x128.Idx)
    (h0 : ∀ k : Fin 128, x0 (ix2 (y 0) k) = X (ix2 (i 0) k))
    (h1 : ∀ k : Fin 128, x1 (ix2 k (y 1)) = Wt (ix2 k (i 1))) :
    k0_pay1 (F := Ideal) x0 x1 y = dense X Wt i := by
  obtain ⟨p, q, rfl⟩ : ∃ (p : Fin 10000) (q : Fin 128), y = ix2 p q := ⟨y 0, y 1, eq_ix2 y⟩
  rw [DenseBlock.pay_apply]
  unfold dense
  exact Finset.sum_congr rfl fun k _ => congrArg₂ (· * ·) (h0 k) (h1 k)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: X and the result move down one block of rows per point, W
    stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `dense` of X and W as the region finds them. -/
theorem flushed_eq (c : Dev nD) (t : Fin cfg0.N) :
    (dat0 V c).flushed 2 t = ((cfg0.win 2).blk t).view.read (Elt Ideal) (dense (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx_facts t
  funext j
  show k0_pay1 (F := Ideal) (iblk0 V c 0 t) (iblk0 V c 1 t) j
    = dense (V c main_arg0) (V c main_arg3) (((cfg0.win 2).blk t).view.emb j)
  refine block_entry (iblk0 V c 0 t) (iblk0 V c 1 t) (V c main_arg0) (V c main_arg3) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array lies in point t's block iff each coordinate lies in the block's range. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Row r belongs to the block of point r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, show (i 0).val / 10000 < grid0.N by rw [hN]; omega⟩
  obtain ⟨-, -, -, -, e20, e21⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the result array is `dense` of X and W as the region found them. -/
theorem final (c : Dev nD) : (dat0 V c).arrAt 2 cfg0.N = dense (V c main_arg0) (V c main_arg3) :=
  (dat0 V c).arrAt_eq_of_cover 2 (dense (V c main_arg0) (V c main_arg3)) (fun t _ => flushed_eq V c t) cover

end Cert.KernelIdeal.DenseArray

end
-- ==== Proof.BiasReluBlock.lean ====
/-
  One row block of the epilogue.  The body adds the bias vector, viewed as one row [1,128] and repeated down
  the 10000 rows of the block, to the block of aggregated features, and takes the maximum with zero.  Read at
  entry (p, q) of the block: max(a[p,q] + b[q], 0).
-/
import proofs.«140472_j13494787244545_1_alg».proof.Proof.Gen.KernelIdeal.Skeleton
import Idealize.ShloMosaic.Lib.ValueIdx
import Idealize.ShloMosaic.Lib.Pipeline.Value
import Idealize.ShloMosaic.PureOps.Ideal

noncomputable section

namespace Cert.KernelIdeal.BiasReluBlock

open Cert.KernelIdeal Cert.KernelIdeal.Gen Idealize.ShloMosaic Idealize.ShloMosaic.ValueIdx

/-- The bias as a row [1,128] repeated down the block, at (p, q), is b[q]. -/
theorem bias_row_apply {α : Type} (b : S128.Idx → α) (p : Fin 10000) (q : Fin 128) :
    broadcastTo S10000x128 (shapeCast S1x128 b shapeCasts_S128_S1x128) broadcasts_S1x128_S10000x128 (ix2 p q) = b (ix1 q) := by
  rw [broadcastTo_apply _ broadcasts_S1x128_S10000x128 (ix2 p q) (ix2 (⟨0, Nat.one_pos⟩ : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])]
  refine shapeCast_apply b shapeCasts_S128_S1x128 _ (ix1 q) ?_
  rw [Shape.rowMajor_val_one, Shape.rowMajor_val_two]
  show q.val = 0 * 128 + q.val
  omega

/-- Entry (p, q) of what the body stores. -/
theorem pay_apply (x0 : Vec Ideal S10000x128 .f32) (x1 : Vec Ideal S128 .f32) (p : Fin 10000) (q : Fin 128) :
    k1_pay1 (F := Ideal) x0 x1 (ix2 p q) = max (x0 (ix2 p q) + x1 (ix1 q)) (Ideal.ofBits .f32 0x00000000#32) := by
  unfold k1_pay1
  show max (shapeCast S10000x128 x0 shapeCasts_S10000x128_S10000x128 (ix2 p q)
      + broadcastTo S10000x128 (shapeCast S1x128 x1 shapeCasts_S128_S1x128) broadcasts_S1x128_S10000x128 (ix2 p q))
    (Ideal.ofBits .f32 0x00000000#32) = _
  rw [shapeCast_self, bias_row_apply]

end Cert.KernelIdeal.BiasReluBlock

end
-- ==== Proof.BiasReluArray.lean ====
/-
  The epilogue as one array.  The second region runs the bias-and-relu body at ten grid points; point t reads
  rows 10000·t … 10000·t + 9999 of the aggregated features and the whole bias vector, and writes back the same
  rows of the result.  Each written block is the corresponding block of ONE function of the whole arrays,
      biasRelu A b (r, q) = max(A[r,q] + b[q], 0),
  and the ten blocks cover all 100000 rows.  Stated for arbitrary contents `V` of the buffers at the region's
  entry.
-/
import proofs.«140472_j13494787244545_1_alg».proof.Proof.Gen.KernelIdeal.Frame
import proofs.«140472_j13494787244545_1_alg».proof.Proof.BiasReluBlock

set_option maxRecDepth 16384

noncomputable section

namespace Cert.KernelIdeal.BiasReluArray

open Cert.KernelIdeal Cert.KernelIdeal.Gen Idealize.ShloMosaic Idealize.ShloMosaic.TcCoe Idealize.SL.Sem
open Idealize.ShloMosaic.ValueIdx
open Idealize.ShloMosaic.Pipeline (Dat)

/-- Add the bias along the feature axis and clamp at zero, entry by entry. -/
def biasRelu (a : S100000x128.Idx → EReal) (b : S128.Idx → EReal) : S100000x128.Idx → EReal :=
  fun i => max (a i + b (ix1 (i 1))) (Ideal.ofBits .f32 0x00000000#32)

/-- An entry of a stored block is an entry of `biasRelu`, once the input block agrees with the array at the
    entry and the staged bias with the bias at the entry's column. -/
theorem block_entry (x0 : FVec Ideal S10000x128 .f32) (x1 : FVec Ideal S128 .f32)
    (A : S100000x128.Idx → EReal) (B : S128.Idx → EReal) (y : S10000x128.Idx) (i : S100000x128.Idx)
    (h0 : x0 (ix2 (y 0) (y 1)) = A i) (h1 : x1 (ix1 (y 1)) = B (ix1 (i 1))) :
    k1_pay1 (F := Ideal) x0 x1 y = biasRelu A B i := by
  obtain ⟨p, q, rfl⟩ : ∃ (p : Fin 10000) (q : Fin 128), y = ix2 p q := ⟨y 0, y 1, eq_ix2 y⟩
  rw [BiasReluBlock.pay_apply]
  unfold biasRelu
  exact congrArg₂ (fun u v => max (u + v) (Ideal.ofBits .f32 0x00000000#32)) h0 h1

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the ten grid points: input and result move down one block of rows per point,
    the bias stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of `biasRelu` of the input array and the bias as the region finds them. -/
theorem flushed_eq (c : Dev nD) (t : Fin cfg1.N) :
    (dat1 V c).flushed 2 t = ((cfg1.win 2).blk t).view.read (Elt Ideal) (biasRelu (V c main_v45) (V c main_arg4)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S128) hz1]
  obtain ⟨e00, e01, e10, e20, e21⟩ := idx_facts t
  funext j
  show k1_pay1 (F := Ideal) (iblk1 V c 0 t) (iblk1 V c 1 t) j
    = biasRelu (V c main_v45) (V c main_arg4) (((cfg1.win 2).blk t).view.emb j)
  refine block_entry (iblk1 V c 0 t) (iblk1 V c 1 t) (V c main_v45) (V c main_arg4) j (((cfg1.win 2).blk t).view.emb j) ?_ ?_
  · show V c main_v45 (((cfg1.win 0).blk t).view.emb (ix2 (j 0) (j 1))) = V c main_v45 (((cfg1.win 2).blk t).view.emb j)
    refine congrArg (V c main_v45) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_arg4 (((cfg1.win 1).blk t).view.emb (ix1 (j 1))) = V c main_arg4 (ix1 ((((cfg1.win 2).blk t).view.emb j) 1))
    refine congrArg (V c main_arg4) (funext fun a => Fin.ext ?_)
    match a with
    | ⟨0, _⟩ => show win1_1.index t (0 : Fin 1) * 128 + 1 * (j 1).val = win1_2.index t (1 : Fin 2) * 128 + 1 * (j 1).val; omega

/-- An index of the result array lies in point t's block iff each coordinate lies in the block's range. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v46).slice (win1_2.rect t)).set ↔ _
  rw [View.set_slice_whole, Rect.mem_set_unit]
  exact Iff.rfl

/-- Row r belongs to the block of point r / 10000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  let t : Fin cfg1.N := ⟨(i 0).val / 10000, show (i 0).val / 10000 < grid1.N by rw [hN]; omega⟩
  obtain ⟨-, -, -, e20, e21⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the result array is `biasRelu` of the input array and the bias as the region found them. -/
theorem final (c : Dev nD) : (dat1 V c).arrAt 2 cfg1.N = biasRelu (V c main_v45) (V c main_arg4) :=
  (dat1 V c).arrAt_eq_of_cover 2 (biasRelu (V c main_v45) (V c main_arg4)) (fun t _ => flushed_eq V c t) cover

end Cert.KernelIdeal.BiasReluArray

end
-- ==== Proof.RefValue.lean ====
/-
  The reference, read as the same three steps as the kernel.

  The reference computes the normalized edge weights from the edge lists and edge weights, the dense product
  H = X·W, the sparse propagation of H (gather the rows of H at the source nodes, scale each by its normalized
  edge weight, sum them at the destination nodes), and relu of the sum with the bias.  The propagation depends on
  X and W only through H, so it is named here once as a function `propagate` of H and the two edge arrays; the
  kernel's host operations between its two regions are the same function of its own H.  Then

      reference(X, edges, weights, W, b) = biasRelu (propagate (dense X W) edges weights) b,

  with `dense` the sum over the contracted axis and `biasRelu` max(· + b, 0) entry by entry.
-/
import proofs.«140472_j13494787244545_1_alg».proof.Proof.Gen.ReferenceIdeal.Read
import proofs.«140472_j13494787244545_1_alg».proof.Proof.DenseArray
import proofs.«140472_j13494787244545_1_alg».proof.Proof.BiasReluArray

noncomputable section

namespace Cert.ReferenceIdeal.RefValue

open Cert.ReferenceIdeal Cert.ReferenceIdeal.Read Idealize.ShloMosaic Idealize.ShloMosaic.ValueIdx
open Cert.KernelIdeal.DenseArray (dense)
open Cert.KernelIdeal.BiasReluArray (biasRelu)

/-- Sparse propagation of a feature array `h` along the normalized adjacency: row `col[e]` of `h`, scaled by the
    normalized weight of edge `e`, is added into row `row[e]` of a zero array, over all edges and self loops. -/
def propagate {F : FTy → Type} [FloatOps F] (h : (⟨S100000x128, .f32⟩ : BufTy).Contents (Elt F))
    (x1 : (⟨S2x1600000, .i32⟩ : BufTy).Contents (Elt F)) (x2 : (⟨S1600000, .f32⟩ : BufTy).Contents (Elt F)) :
    (⟨S100000x128, .f32⟩ : BufTy).Contents (Elt F) :=
  Host.scatterAdd scatter_S100000x128_S1700000x1_S1700000x128_1_0_0_1 (val_main_v43 (F := F)) (val_main_v44 (F := F) x1)
    (mulf (val_main_v41 (F := F) x1 x2)
      (Host.gather gather_S100000x128_S1700000x1_S1700000x128_1_0_n_n_0_1_1128 h (val_main_v39 (F := F) x1)))

/-- The reference's aggregated features are the propagation of its dense product. -/
theorem aggregated_eq {F : FTy → Type} [FloatOps F] (x0 : (⟨S100000x128, .f32⟩ : BufTy).Contents (Elt F))
    (x1 : (⟨S2x1600000, .i32⟩ : BufTy).Contents (Elt F)) (x2 : (⟨S1600000, .f32⟩ : BufTy).Contents (Elt F))
    (x3 : (⟨S128x128, .f32⟩ : BufTy).Contents (Elt F)) :
    val_main_v45 (F := F) x0 x1 x2 x3 = propagate (val_main_v32 (F := F) x0 x3) x1 x2 := rfl

/-- The reference's dense product is the sum over the contracted axis. -/
theorem dense_eq (x0 : (⟨S100000x128, .f32⟩ : BufTy).Contents (Elt Ideal)) (x3 : (⟨S128x128, .f32⟩ : BufTy).Contents (Elt Ideal)) :
    val_main_v32 (F := Ideal) x0 x3 = dense x0 x3 := by
  funext i
  rw [val_main_v32_apply]
  unfold dense
  refine Finset.sum_congr rfl fun k _ => ?_
  have el : lidx_main_v32 i k = ix2 (i 0) k := funext fun a => Fin.ext (by match a with | ⟨0, _⟩ => rfl | ⟨1, _⟩ => rfl)
  have er : ridx_main_v32 i k = ix2 k (i 1) := funext fun a => Fin.ext (by match a with | ⟨0, _⟩ => rfl | ⟨1, _⟩ => rfl)
  rw [el, er]
  rfl

/-- The reference's result, as the three steps. -/
theorem result_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) :
    val_main_v49 (F := Ideal) x0 x1 x2 x3 x4 = biasRelu (propagate (F := Ideal) (dense x0 x3) x1 x2) x4 := by
  funext i
  rw [val_main_v49_apply, val_main_v48_apply, aggregated_eq, dense_eq, val_main_v47_apply, val_main_v46_apply,
    val_main_call1_v0_apply, val_main_call1_cst_apply]
  have eb : idx_main_v46 (idx_main_v47 i) = ix1 (i 1) := funext fun a => Fin.ext (by match a with | ⟨0, _⟩ => rfl)
  rw [eb]
  rfl

end Cert.ReferenceIdeal.RefValue

end
-- ==== Proof.ResultRun.lean ====
/-
  The idealized kernel's run with its result buffer kept.

  @main is six segments: three stretches of host operations (the edge lists, the degrees and the normalized
  edge weights), the dense product X·W as a pipelined region of ten row blocks, a stretch of host operations
  (gather the transformed rows, weight them, sum them by destination node) and the bias-and-relu region, again
  ten row blocks.  Chained through the thread state "every unscoped buffer at the boundary's contents", the run
  ends with every unscoped buffer at the last boundary's contents `W6`.  The frame claim reads only the five
  argument arrays off that state; here the result array %46 is read off it as well, so that its contents can
  be compared with the reference's.
-/
import proofs.«140472_j13494787244545_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array %46 at the last
    boundary's contents and the five argument arrays as launched. -/
theorem run : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.ResultRun

end
-- ==== Proof.HostStretches.lean ====
/-
  The kernel's host operations, read back.

  Around its two regions the kernel's @main runs the same host operations as the reference: before the dense
  product, the edge lists with self loops (`row`, `col`), the weights with ones appended, the degrees as a segment
  sum, their inverse square roots where positive, and the normalized weights d[row]·w·d[col]; between the two
  regions, the sparse propagation of the dense product.  Each stretch is read here as a function of the buffer
  contents it starts from, and named by the reference's own stages (the two programs print the same operations,
  so the terms agree by unfolding).  The contents at the boundaries then follow: the first region finds X and W
  as launched; the second finds the propagation of the first region's result and the bias as launched.
-/
import proofs.«140472_j13494787244545_1_alg».proof.Proof.Gen.KernelIdeal.Frame
import proofs.«140472_j13494787244545_1_alg».proof.Proof.RefValue

set_option maxRecDepth 16384

noncomputable section

namespace Cert.KernelIdeal.HostStretches

open Cert.KernelIdeal Cert.KernelIdeal.Gen Idealize.ShloMosaic Idealize.ShloMosaic.TcCoe Idealize.SL.Sem Idealize.ShloMosaic.StableHlo
open Cert.ReferenceIdeal.Read (val_main_v5 val_main_v6 val_main_v8 val_main_v13 val_main_v14 val_main_cst_2 val_main_v15 val_main_v31)
open Cert.ReferenceIdeal.RefValue (propagate)

/-! ## One stretch at a time, from any contents -/

section Stretch

variable (Wx : Valuation τ sig (Elt Ideal))
variable (x1 : (⟨S2x1600000, .i32⟩ : BufTy).Contents (Elt Ideal)) (x2 : (⟨S1600000, .f32⟩ : BufTy).Contents (Elt Ideal))

/-- The second stretch is `jnp.where`: it selects, by a mask, between an array and a broadcast scalar.  Stated for
    arbitrary operands: the mask, the array and the scalar are whatever the stretch finds. -/
theorem where_value (A : (⟨S100000, .i1⟩ : BufTy).Contents (Elt Ideal)) (B : (⟨S100000, .f32⟩ : BufTy).Contents (Elt Ideal))
    (Z : (⟨S_, .f32⟩ : BufTy).Contents (Elt Ideal))
    (hA : Wx (Proc.devRef .tc main_v13) = A) (hB : Wx (Proc.devRef .tc main_v14) = B) (hZ : Wx (Proc.devRef .tc main_cst_2) = Z) :
    after hostOps0_1 Wx (Proc.devRef .tc main_v15) = select A B (broadcastInDim S100000 ![] bcast_S_S100000 (id Z)) := by
  after_results_simp
  rw [hA, hB, hZ]
  rfl

/-- With the mask "degree positive", the inverse square roots of the degrees and the zero scalar it yields the
    inverse square-root degrees, zero where the degree is not positive. -/
theorem inverse_sqrt_degrees (h13 : Wx (Proc.devRef .tc main_v13) = val_main_v13 (F := Ideal) x1 x2)
    (h14 : Wx (Proc.devRef .tc main_v14) = val_main_v14 (F := Ideal) x1 x2)
    (hc : Wx (Proc.devRef .tc main_cst_2) = val_main_cst_2 (F := Ideal)) :
    after hostOps0_1 Wx (Proc.devRef .tc main_v15) = val_main_v15 (F := Ideal) x1 x2 :=
  (where_value Wx _ _ _ h13 h14 hc).trans rfl

set_option maxHeartbeats 4000000 in
/-- The third stretch turns the edge lists, the extended weights and the inverse square-root degrees into the
    normalized weights d[row] · w · d[col]. -/
theorem normalized (h5 : Wx (Proc.devRef .tc main_v5) = val_main_v5 (F := Ideal) x1)
    (h6 : Wx (Proc.devRef .tc main_v6) = val_main_v6 (F := Ideal) x1)
    (h8 : Wx (Proc.devRef .tc main_v8) = val_main_v8 (F := Ideal) x2)
    (h15 : Wx (Proc.devRef .tc main_v15) = val_main_v15 (F := Ideal) x1 x2) :
    after hostOps0_2 Wx (Proc.devRef .tc main_v31) = val_main_v31 (F := Ideal) x1 x2 := by
  after_results_simp
  rw [h5, h6, h8, h15]
  rfl

set_option maxHeartbeats 4000000 in
/-- The stretch between the regions is the sparse propagation of whatever the first region left in %32. -/
theorem aggregated (h5 : Wx (Proc.devRef .tc main_v5) = val_main_v5 (F := Ideal) x1)
    (h6 : Wx (Proc.devRef .tc main_v6) = val_main_v6 (F := Ideal) x1)
    (h31 : Wx (Proc.devRef .tc main_v31) = val_main_v31 (F := Ideal) x1 x2) :
    after hostOps1 Wx (Proc.devRef .tc main_v45) = propagate (F := Ideal) (Wx (Proc.devRef .tc main_v32)) x1 x2 := by
  after_results_simp
  rw [h5, h6, h31]
  rfl

/-- That stretch does not write the bias. -/
theorem aggregated_keeps_bias : after hostOps1 Wx (Proc.devRef .tc main_arg4) = Wx (Proc.devRef .tc main_arg4) := by
  after_results_simp

end Stretch

/-! ## The contents at the boundaries of the run -/

variable (m : (ℓ : Loc nD τ sig) → Buf (Elt Ideal) ℓ) (ρ : Dev nD → PrngReg)

/-- The first region finds X as launched, -/
theorem entry0_X (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp
/-- W as launched, -/
theorem entry0_W (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp
/-- and leaves the bias as launched. -/
theorem entry0_bias (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp

set_option maxHeartbeats 4000000 in
/-- After the first two stretches: the destination nodes with self loops, -/
theorem mid_row (c : Dev nD) : W2 m ρ c (Proc.devRef .tc main_v5) = val_main_v5 (F := Ideal) (m ((c : Thread nD τ).loc main_arg1)) := by
  show after hostOps0_1 (after hostOps0 (W0 m ρ c)) (Proc.devRef .tc main_v5) = _
  after_results_simp
  rfl
set_option maxHeartbeats 4000000 in
/-- the source nodes with self loops, -/
theorem mid_col (c : Dev nD) : W2 m ρ c (Proc.devRef .tc main_v6) = val_main_v6 (F := Ideal) (m ((c : Thread nD τ).loc main_arg1)) := by
  show after hostOps0_1 (after hostOps0 (W0 m ρ c)) (Proc.devRef .tc main_v6) = _
  after_results_simp
  rfl
set_option maxHeartbeats 4000000 in
/-- the edge weights with ones for the self loops, -/
theorem mid_weights (c : Dev nD) : W2 m ρ c (Proc.devRef .tc main_v8) = val_main_v8 (F := Ideal) (m ((c : Thread nD τ).loc main_arg2)) := by
  show after hostOps0_1 (after hostOps0 (W0 m ρ c)) (Proc.devRef .tc main_v8) = _
  after_results_simp
  rfl
set_option maxHeartbeats 4000000 in
/-- After the first stretch alone: the mask "degree positive", -/
theorem start_positive (c : Dev nD) : W1 m ρ c (Proc.devRef .tc main_v13)
    = val_main_v13 (F := Ideal) (m ((c : Thread nD τ).loc main_arg1)) (m ((c : Thread nD τ).loc main_arg2)) := by
  show after hostOps0 (W0 m ρ c) (Proc.devRef .tc main_v13) = _
  after_results_simp
  rfl
set_option maxHeartbeats 4000000 in
/-- the inverse square roots of the degrees, -/
theorem start_rsqrt (c : Dev nD) : W1 m ρ c (Proc.devRef .tc main_v14)
    = val_main_v14 (F := Ideal) (m ((c : Thread nD τ).loc main_arg1)) (m ((c : Thread nD τ).loc main_arg2)) := by
  show after hostOps0 (W0 m ρ c) (Proc.devRef .tc main_v14) = _
  after_results_simp
  rfl
/-- and the zero scalar. -/
theorem start_zero (c : Dev nD) : W1 m ρ c (Proc.devRef .tc main_cst_2) = val_main_cst_2 (F := Ideal) := by
  show after hostOps0 (W0 m ρ c) (Proc.devRef .tc main_cst_2) = _
  after_results_simp
  rfl
/-- After the second stretch: the inverse square-root degrees (zero where the degree is not positive). -/
theorem mid_dinv (c : Dev nD) : W2 m ρ c (Proc.devRef .tc main_v15)
    = val_main_v15 (F := Ideal) (m ((c : Thread nD τ).loc main_arg1)) (m ((c : Thread nD τ).loc main_arg2)) :=
  inverse_sqrt_degrees (W1 m ρ c) _ _ (start_positive m ρ c) (start_rsqrt m ρ c) (start_zero m ρ c)

set_option maxHeartbeats 4000000 in
/-- The third stretch keeps the two edge lists, -/
theorem entry0_row (c : Dev nD) : W3 m ρ c (Proc.devRef .tc main_v5) = val_main_v5 (F := Ideal) (m ((c : Thread nD τ).loc main_arg1)) := by
  show after hostOps0_2 (W2 m ρ c) (Proc.devRef .tc main_v5) = _
  generalize hW : W2 m ρ c = Wx
  have h := mid_row m ρ c; rw [hW] at h
  after_results_simp
  exact h
set_option maxHeartbeats 4000000 in
theorem entry0_col (c : Dev nD) : W3 m ρ c (Proc.devRef .tc main_v6) = val_main_v6 (F := Ideal) (m ((c : Thread nD τ).loc main_arg1)) := by
  show after hostOps0_2 (W2 m ρ c) (Proc.devRef .tc main_v6) = _
  generalize hW : W2 m ρ c = Wx
  have h := mid_col m ρ c; rw [hW] at h
  after_results_simp
  exact h
/-- and computes the normalized weights. -/
theorem entry0_normalized (c : Dev nD) : W3 m ρ c (Proc.devRef .tc main_v31)
    = val_main_v31 (F := Ideal) (m ((c : Thread nD τ).loc main_arg1)) (m ((c : Thread nD τ).loc main_arg2)) :=
  normalized (W2 m ρ c) _ _ (mid_row m ρ c) (mid_col m ρ c) (mid_weights m ρ c) (mid_dinv m ρ c)

/-- The second region finds the propagation of the first region's result … -/
theorem entry1_aggregated (c : Dev nD) : W5 m ρ c (Proc.devRef .tc main_v45)
    = propagate (F := Ideal) (W4 m ρ c (Proc.devRef .tc main_v32)) (m ((c : Thread nD τ).loc main_arg1)) (m ((c : Thread nD τ).loc main_arg2)) :=
  aggregated (W4 m ρ c) _ _
    ((W4_of_ne m ρ c main_v5 (by decide)).trans (entry0_row m ρ c))
    ((W4_of_ne m ρ c main_v6 (by decide)).trans (entry0_col m ρ c))
    ((W4_of_ne m ρ c main_v31 (by decide)).trans (entry0_normalized m ρ c))

/-- … and the bias as launched. -/
theorem entry1_bias (c : Dev nD) : W5 m ρ c (Proc.devRef .tc main_arg4) = m ((c : Thread nD τ).loc main_arg4) :=
  (aggregated_keeps_bias (W4 m ρ c)).trans ((W4_of_ne m ρ c main_arg4 (by decide)).trans (entry0_bias m ρ c))

end Cert.KernelIdeal.HostStretches

end
-- ==== Proof.KernelValue.lean ====
/-
  The idealized kernel's result as one function of its arguments.

  The run ends with the result array %46 at the last boundary's contents.  Walking back through the boundaries:
  the second region leaves there `biasRelu` of what it found in %45 and in the bias; it found in %45 the sparse
  propagation of what the first region left in %32, and the bias as launched; the first region left in %32
  `dense` of X and W, which it found as launched.  So the kernel returns

      biasRelu (propagate (dense X W) edges weights) b

  of the launch contents of its five arguments.
-/
import proofs.«140472_j13494787244545_1_alg».proof.Proof.ResultRun
import proofs.«140472_j13494787244545_1_alg».proof.Proof.HostStretches

set_option maxRecDepth 16384

noncomputable section

namespace Cert.KernelIdeal.KernelValue

open Cert.KernelIdeal Cert.KernelIdeal.Gen Idealize.ShloMosaic Idealize.ShloMosaic.TcCoe Idealize.SL.Sem
open Cert.KernelIdeal.DenseArray (dense)
open Cert.KernelIdeal.BiasReluArray (biasRelu)
open Cert.ReferenceIdeal.RefValue (propagate)
open Cert.KernelIdeal.HostStretches

variable (m : (ℓ : Loc nD τ sig) → Buf (Elt Ideal) ℓ) (ρ : Dev nD → PrngReg)

/-- The three steps applied to the launch contents of the arguments on core `c`. -/
def result (c : Dev nD) : S100000x128.Idx → EReal :=
  biasRelu (propagate (F := Ideal)
      (dense (m ((c : Thread nD τ).loc main_arg0)) (m ((c : Thread nD τ).loc main_arg3)))
      (m ((c : Thread nD τ).loc main_arg1)) (m ((c : Thread nD τ).loc main_arg2)))
    (m ((c : Thread nD τ).loc main_arg4))

/-- The first region leaves X·W of the launch contents in %32. -/
theorem dense_result (c : Dev nD) : W4 m ρ c (Proc.devRef .tc main_v32)
    = dense (m ((c : Thread nD τ).loc main_arg0)) (m ((c : Thread nD τ).loc main_arg3)) := by
  have h := (W4_arr m ρ c 2).trans (DenseArray.final (V3 m ρ) c)
  have hX : V3 m ρ c main_arg0 = m ((c : Thread nD τ).loc main_arg0) := entry0_X m ρ c
  have hW : V3 m ρ c main_arg3 = m ((c : Thread nD τ).loc main_arg3) := entry0_W m ρ c
  rw [hX, hW] at h
  exact h

/-- The last boundary's contents of the result array. -/
theorem result_eq (c : Dev nD) : W6 m ρ c (Proc.devRef .tc main_v46) = result m c := by
  have h := (W6_arr m ρ c 2).trans (BiasReluArray.final (V5 m ρ) c)
  have ha : V5 m ρ c main_v45 = propagate (F := Ideal) (W4 m ρ c (Proc.devRef .tc main_v32))
      (m ((c : Thread nD τ).loc main_arg1)) (m ((c : Thread nD τ).loc main_arg2)) := entry1_aggregated m ρ c
  have hb : V5 m ρ c main_arg4 = m ((c : Thread nD τ).loc main_arg4) := entry1_bias m ρ c
  rw [ha, hb, dense_result m ρ c] at h
  exact h

/-- Every weakly fair execution of the idealized kernel terminates, nothing faulting, with its result at `result`
    of the launch contents and its arguments unchanged. -/
theorem run : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (ResultRun.run (F := Ideal) m ρ)

end Cert.KernelIdeal.KernelValue

end
-- ==== Proof.lean ====
/-
  A graph-convolution layer: normalize the adjacency (with self loops) by the inverse square roots of the
  degrees, transform the node features by a dense weight, propagate along the normalized adjacency, add a bias
  and apply relu.  The kernel does the dense product X·W and the bias-and-relu epilogue as two pipelined
  regions of ten row blocks each, with bf16-cast operands on the MXU for the product, and leaves the
  normalization and the sparse propagation to the same host operations the reference runs.

  Over the extended reals the two programs are one function.  The bf16 casts are the identity; each block's
  matmul into a zero accumulator is the sum over the contracted axis, as is the reference's dot_general, and the
  ten row blocks tile the array (Proof/DenseBlock, Proof/DenseArray); the epilogue is max(· + b, 0) entry by
  entry on both sides (Proof/BiasReluBlock, Proof/BiasReluArray); the propagation is the same host term of the
  dense product on both sides (Proof/RefValue, Proof/HostStretches).  No step moves a factor across a sum or
  cancels anything, so the finiteness of the inputs is never used.

  The three frames: the kernel's two are the generated frame certificates; the reference has no kernel, and its
  frame is its generated run with the result dropped.  The ideal pass rewrote nothing, so `preserves` is `True`.
-/
import proofs.«140472_j13494787244545_1_alg».proof.Defs
import proofs.«140472_j13494787244545_1_alg».proof.Proof.Gen.Kernel
import proofs.«140472_j13494787244545_1_alg».proof.Proof.Gen.Kernel.Frame
import proofs.«140472_j13494787244545_1_alg».proof.Proof.Gen.KernelIdeal
import proofs.«140472_j13494787244545_1_alg».proof.Proof.Gen.KernelIdeal.Frame
import proofs.«140472_j13494787244545_1_alg».proof.Proof.Gen.ReferenceIdeal
import proofs.«140472_j13494787244545_1_alg».proof.Proof.Gen.ReferenceIdeal.Run
import proofs.«140472_j13494787244545_1_alg».proof.Proof.Gen.ReferenceIdeal.Read
import proofs.«140472_j13494787244545_1_alg».proof.Proof.Gen.Pre_finite_inputs
import proofs.«140472_j13494787244545_1_alg».proof.Proof.RefValue
import proofs.«140472_j13494787244545_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both programs end with their result arrays at
    biasRelu (propagate (dense X W) edges weights) b. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1,
    (hagree c).2.2.2.2]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
